-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S50000x16x256 : Shape := ⟨3, ![50000, 16, 256]⟩
abbrev S256x512 : Shape := ⟨2, ![256, 512]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000x16x256 : S_.BroadcastsInDim S50000x16x256 (![] : Fin 0 → Fin S50000x16x256.rank)
  reducesTo_S50000x16x256_S_d0_1_2 : S50000x16x256.ReducesTo [0, 1, 2] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S50000x256 .f32) (main_arg1 : FVec F S50000x16x256 .f32) (main_arg2 : FVec F S256x512 .f32) (main_arg3 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x16x256 .f32 := Host.absf main_arg1
  let main_cst_0 : FVec F S_ .f32 := constant S_ .f32 0x7F800000#32
  let main_v5 : FVec F S50000x16x256 .f32 := broadcastInDim S50000x16x256 ![] bcast_S_S50000x16x256 main_cst_0
  let main_v6 : IVec S50000x16x256 1 := cmpf .olt main_v4 main_v5
  let main_c_1 : IVec S_ 1 := constantI S_ 1 1#1
  let main_v7 : IVec S_ 1 := (fun x v => Host.reduce IntOp.andi x v reducesTo_S50000x16x256_S_d0_1_2 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S50000x256 : Shape := ⟨2, ![50000, 256]⟩
abbrev S50000x16x256 : Shape := ⟨3, ![50000, 16, 256]⟩
abbrev S256x512 : Shape := ⟨2, ![256, 512]⟩
abbrev S256 : Shape := ⟨1, ![256]⟩
abbrev S1x256 : Shape := ⟨2, ![1, 256]⟩
abbrev S1000x256 : Shape := ⟨2, ![1000, 256]⟩
abbrev S1000x16x256 : Shape := ⟨3, ![1000, 16, 256]⟩
abbrev S1000x1x256 : Shape := ⟨3, ![1000, 1, 256]⟩
abbrev S256x256 : Shape := ⟨2, ![256, 256]⟩

abbrev nBuf : Space → Nat
  | .hbm => 7
  | .vmem => 8
  | .smem => 0
  | _ => 0

abbrev bufTy : (tb : Table) → Fin (tcTables nBuf tb) → BufTy
  | .hbm, ⟨0, _⟩ => ⟨S50000x256, .f32⟩
  | .hbm, ⟨1, _⟩ => ⟨S50000x16x256, .f32⟩
  | .hbm, ⟨2, _⟩ => ⟨S256x512, .f32⟩
  | .hbm, ⟨3, _⟩ => ⟨S256, .f32⟩
  | .hbm, ⟨4, _⟩ => ⟨S256x512, .bf16⟩
  | .hbm, ⟨5, _⟩ => ⟨S1x256, .f32⟩
  | .hbm, ⟨6, _⟩ => ⟨S50000x256, .f32⟩
  | .local _ .vmem, ⟨0, _⟩ => ⟨S1000x256, .f32⟩
  | .local _ .vmem, ⟨1, _⟩ => ⟨S1000x256, .f32⟩
  | .local _ .vmem, ⟨2, _⟩ => ⟨S1000x16x256, .f32⟩
  | .local _ .vmem, ⟨3, _⟩ => ⟨S1000x16x256, .f32⟩
  | .local _ .vmem, ⟨4, _⟩ => ⟨S256x512, .bf16⟩
  | .local _ .vmem, ⟨5, _⟩ => ⟨S1x256, .f32⟩
  | .local _ .vmem, ⟨6, _⟩ => ⟨S1000x256, .f32⟩
  | .local _ .vmem, ⟨7, _⟩ => ⟨S1000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  shapeCasts_S256_S1x256 : S256.ShapeCasts S1x256
  inb_S1000x16x256_S1000x1x256_0_0_0 : ∀ a, (![0, 0, 0] : Fin 3 → Nat) a + S1000x1x256.size a ≤ S1000x16x256.size a
  h_S1000x1x256 : 0 < S1000x1x256.numel
  shapeCasts_S1000x1x256_S1000x256 : S1000x1x256.ShapeCasts S1000x256
  inb_S1000x16x256_S1000x1x256_0_1_0 : ∀ a, (![0, 1, 0] : Fin 3 → Nat) a + S1000x1x256.size a ≤ S1000x16x256.size a
  inb_S1000x16x256_S1000x1x256_0_2_0 : ∀ a, (![0, 2, 0] : Fin 3 → Nat) a + S1000x1x256.size a ≤ S1000x16x256.size a
  inb_S1000x16x256_S1000x1x256_0_3_0 : ∀ a, (![0, 3, 0] : Fin 3 → Nat) a + S1000x1x256.size a ≤ S1000x16x256.size a
  inb_S1000x16x256_S1000x1x256_0_4_0 : ∀ a, (![0, 4, 0] : Fin 3 → Nat) a + S1000x1x256.size a ≤ S1000x16x256.size a
  inb_S1000x16x256_S1000x1x256_0_5_0 : ∀ a, (![0, 5, 0] : Fin 3 → Nat) a + S1000x1x256.size a ≤ S1000x16x256.size a
  inb_S1000x16x256_S1000x1x256_0_6_0 : ∀ a, (![0, 6, 0] : Fin 3 → Nat) a + S1000x1x256.size a ≤ S1000x16x256.size a
  inb_S1000x16x256_S1000x1x256_0_7_0 : ∀ a, (![0, 7, 0] : Fin 3 → Nat) a + S1000x1x256.size a ≤ S1000x16x256.size a
  inb_S1000x16x256_S1000x1x256_0_8_0 : ∀ a, (![0, 8, 0] : Fin 3 → Nat) a + S1000x1x256.size a ≤ S1000x16x256.size a
  inb_S1000x16x256_S1000x1x256_0_9_0 : ∀ a, (![0, 9, 0] : Fin 3 → Nat) a + S1000x1x256.size a ≤ S1000x16x256.size a
  inb_S1000x16x256_S1000x1x256_0_10_0 : ∀ a, (![0, 10, 0] : Fin 3 → Nat) a + S1000x1x256.size a ≤ S1000x16x256.size a
  inb_S1000x16x256_S1000x1x256_0_11_0 : ∀ a, (![0, 11, 0] : Fin 3 → Nat) a + S1000x1x256.size a ≤ S1000x16x256.size a
  inb_S1000x16x256_S1000x1x256_0_12_0 : ∀ a, (![0, 12, 0] : Fin 3 → Nat) a + S1000x1x256.size a ≤ S1000x16x256.size a
  inb_S1000x16x256_S1000x1x256_0_13_0 : ∀ a, (![0, 13, 0] : Fin 3 → Nat) a + S1000x1x256.size a ≤ S1000x16x256.size a
  inb_S1000x16x256_S1000x1x256_0_14_0 : ∀ a, (![0, 14, 0] : Fin 3 → Nat) a + S1000x1x256.size a ≤ S1000x16x256.size a
  inb_S1000x16x256_S1000x1x256_0_15_0 : ∀ a, (![0, 15, 0] : Fin 3 → Nat) a + S1000x1x256.size a ≤ S1000x16x256.size a
  inb_S1000x256_S1000x256_0_0 : ∀ a, (![0, 0] : Fin 2 → Nat) a + S1000x256.size a ≤ S1000x256.size a
  h_S1000x256 : 0 < S1000x256.numel
  inb_S256x512_S256x256_0_0 : ∀ a, (![0, 0] : Fin 2 → Nat) a + S256x256.size a ≤ S256x512.size a
  h_S256x256 : 0 < S256x256.numel
  shapeCasts_S256x256_S256x256 : S256x256.ShapeCasts S256x256
  inb_S256x512_S256x256_0_256 : ∀ a, (![0, 256] : Fin 2 → Nat) a + S256x256.size a ≤ S256x512.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  dot_S1000x256_S256x256_S1000x256_1_1_0_0_n_n_wf : DotDims.WF S1000x256 S256x256 S1000x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x16x256.size a ≤ S50000x16x256.size a
  hwx0_1 : ∀ i : grid0.Coords, EltTy.bits .f32 = 32 ∨ (Rect.block (s := S50000x16x256) S1000x16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S50000x256.size a
  hwx0_4 : ∀ i : grid0.Coords, EltTy.bits .f32 = 32 ∨ (Rect.block (s := S50000x256) S1000x256.size (cc0_transform_4 i) (hinb0_4 i)).WholeWords (EltTy.packing .f32)

variable [Facts₀]

def dot_S1000x256_S256x256_S1000x256_1_1_0_0_n_n : DotDims S1000x256 S256x256 S1000x256 where
  lhsContracting := [1]
  rhsContracting := [1]
  lhsNonContracting := [0]
  rhsNonContracting := [0]
  lhsBatch := []
  rhsBatch := []
  wf := dot_S1000x256_S256x256_S1000x256_1_1_0_0_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x256 : Shape := ⟨2, ![50000, 256]⟩
abbrev S50000x16x256 : Shape := ⟨3, ![50000, 16, 256]⟩
abbrev S256x512 : Shape := ⟨2, ![256, 512]⟩
abbrev S256 : Shape := ⟨1, ![256]⟩
abbrev S_ : Shape := ⟨0, ![]⟩
abbrev S50000x512 : Shape := ⟨2, ![50000, 512]⟩
abbrev S1x256 : Shape := ⟨2, ![1, 256]⟩

abbrev nBuf : Space → Nat
  | .hbm => 17
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x16x256, .f32⟩
  | .hbm, ⟨2, _⟩ => ⟨S256x512, .f32⟩
  | .hbm, ⟨3, _⟩ => ⟨S256, .f32⟩
  | .hbm, ⟨4, _⟩ => ⟨S_, .f32⟩
  | .hbm, ⟨5, _⟩ => ⟨S50000x256, .f32⟩
  | .hbm, ⟨6, _⟩ => ⟨S_, .f32⟩
  | .hbm, ⟨7, _⟩ => ⟨S50000x256, .f32⟩
  | .hbm, ⟨8, _⟩ => ⟨S50000x256, .f32⟩
  | .hbm, ⟨9, _⟩ => ⟨S50000x512, .f32⟩
  | .hbm, ⟨10, _⟩ => ⟨S50000x256, .f32⟩
  | .hbm, ⟨11, _⟩ => ⟨S1x256, .f32⟩
  | .hbm, ⟨12, _⟩ => ⟨S50000x256, .f32⟩
  | .hbm, ⟨13, _⟩ => ⟨S50000x256, .f32⟩
  | .hbm, ⟨14, _⟩ => ⟨S_, .f32⟩
  | .hbm, ⟨15, _⟩ => ⟨S50000x256, .f32⟩
  | .hbm, ⟨16, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  reducesTo_S50000x16x256_S50000x256_d1 : S50000x16x256.ReducesTo [1] S50000x256
  h_S_ : 0 < S_.numel
  bcast_S_S50000x256 : S_.BroadcastsInDim S50000x256 (![] : Fin 0 → Fin S50000x256.rank)
  concatenates_S50000x256_S50000x256_S50000x512_d1 : Shape.Concatenates [S50000x256, S50000x256] S50000x512 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x512_S256x512_S50000x256_1_1_0_0_n_n_wf : DotDims.WF S50000x512 S256x512 S50000x256 [1] [1] [0] [0] [] []

variable [Facts₀]

def dot_S50000x512_S256x512_S50000x256_1_1_0_0_n_n : DotDims S50000x512 S256x512 S50000x256 where
  lhsContracting := [1]
  rhsContracting := [1]
  lhsNonContracting := [0]
  rhsNonContracting := [0]
  lhsBatch := []
  rhsBatch := []
  wf := dot_S50000x512_S256x512_S50000x256_1_1_0_0_n_n_wf

class Facts : Prop extends Facts₀ where

variable [Facts]
-- ==== Proof.Spec.lean ====
/-
  The function both programs compute, index by index on the extended reals, and the three laws that join their two
  arrangements of it.

  One layer of a graph network with mean aggregation. For node `n` and output feature `o`:

      layer n o = max (Σ_{d<256} h[n,d] · W[o,d]  +  Σ_{d<256} mean[n,d] · W[o,256+d]  +  b[o]) 0,
      mean n d  = (Σ_{j<16} nei[n,j,d]) · (1/16).

  The kernel adds the sixteen neighbour rows one after the other, scales by the constant 1/16, and multiplies the node's
  own features and the mean by the left and right halves of the weight columns separately. The reference reduces over the
  neighbour axis, divides by sixteen, joins the two feature blocks into 512 columns and contracts once. The laws below say
  these are the same number: a sum over sixteen terms is the terms added left to right, a sum over 512 columns is the sum
  over the first 256 plus the sum over the last 256, and dividing by 16 is multiplying by 1/16 on every extended real.
  None of them distributes a product over a sum, so none needs the inputs to be finite.
-/
import Idealize.ShloMosaic.PureOps.Ideal
import Idealize.ShloMosaic.Lib.ValueIdx

noncomputable section

namespace Cert.Sage

open Idealize.ShloMosaic Idealize.ShloMosaic.ValueIdx

/-! ## The two constants -/

/-- The pattern of `0.0625` denotes the real `1/16`. -/
theorem ofBits_sixteenth : Ideal.ofBits .f32 0x3D800000#32 = ((1 / 16 : ℝ) : EReal) := by
  simp [Ideal.ofBits, Ideal.ieee, -EReal.coe_mul]; norm_num

/-- The pattern of `16.0` denotes the real `16`. -/
theorem ofBits_sixteen : Ideal.ofBits .f32 0x41800000#32 = ((16 : ℝ) : EReal) := by
  simp [Ideal.ofBits, Ideal.ieee, -EReal.coe_mul]; norm_num

/-- Dividing by sixteen is multiplying by a sixteenth, at the infinities too. -/
theorem div_sixteen (x : EReal) :
    Ideal.div x (Ideal.ofBits .f32 0x41800000#32) = x * Ideal.ofBits .f32 0x3D800000#32 := by
  rw [ofBits_sixteen, ofBits_sixteenth, Ideal.div_coe (by norm_num)]

/-! ## The two regroupings of a sum -/

/-- A sum over sixteen terms is the terms added from left to right. -/
theorem sum_sixteen (f : Fin 16 → EReal) :
    ∑ j, f j = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-- Column `k` of the left half of the 512 weight columns: the half that meets the node's own features. -/
abbrev colSelf (k : Fin 256) : Fin 512 := ⟨k.val, by omega⟩
/-- Column `k` of the right half: the half that meets the neighbours' mean. -/
abbrev colNbr (k : Fin 256) : Fin 512 := ⟨256 + k.val, by omega⟩

/-- A sum over the 512 columns is the sum over the left half plus the sum over the right half. -/
theorem sum_halves (f : Fin 512 → EReal) :
    ∑ k, f k = ∑ k : Fin 256, f (colSelf k) + ∑ k : Fin 256, f (colNbr k) :=
  Fin.sum_univ_add (a := 256) (b := 256) f

/-! ## The layer -/

/-- The mean of node `n`'s sixteen neighbour rows at feature `d`. -/
def mean (nei : (⟨3, ![50000, 16, 256]⟩ : Shape).Idx → EReal) (n : Fin 50000) (d : Fin 256) : EReal :=
  (∑ j : Fin 16, nei (ix3 n j d)) * Ideal.ofBits .f32 0x3D800000#32

/-- Output feature `o` of node `n`. -/
def layerAt (h : (⟨2, ![50000, 256]⟩ : Shape).Idx → EReal) (nei : (⟨3, ![50000, 16, 256]⟩ : Shape).Idx → EReal)
    (W : (⟨2, ![256, 512]⟩ : Shape).Idx → EReal) (b : (⟨1, ![256]⟩ : Shape).Idx → EReal) (n : Fin 50000) (o : Fin 256) : EReal :=
  max ((∑ k : Fin 256, h (ix2 n k) * W (ix2 o (colSelf k)) + ∑ k : Fin 256, mean nei n k * W (ix2 o (colNbr k)))
    + b (ix1 o)) 0

/-- The whole result array. -/
def layer (h : (⟨2, ![50000, 256]⟩ : Shape).Idx → EReal) (nei : (⟨3, ![50000, 16, 256]⟩ : Shape).Idx → EReal)
    (W : (⟨2, ![256, 512]⟩ : Shape).Idx → EReal) (b : (⟨1, ![256]⟩ : Shape).Idx → EReal) :
    (⟨2, ![50000, 256]⟩ : Shape).Idx → EReal :=
  fun i => layerAt h nei W b (i 0) (i 1)

end Cert.Sage

end
-- ==== Proof.Body.lean ====
/-
  The kernel's body at one grid point, read at one entry of its output block.

  The body loads sixteen [1000, 1, 256] slices of its neighbour block (one per neighbour position), drops their unit
  axis and adds them left to right, scales by 1/16, and multiplies the node block [1000, 256] by the left 256 weight
  columns and the scaled sum by the right 256, both contracting the feature axis against the weight's column axis
  (the weights are stored output-feature by input-feature, so row `o` of the weights meets row `n` of the features).
  It adds the two products and the bias row and takes the maximum with zero. At entry (p, q) of the block that is

      max (Σ_k node[p,k] · Wl[q,k] + Σ_k ((Σ_j nbr_j[p,0,k]) · (1/16)) · Wr[q,k] + bias[0,q]) 0.

  A change of float format is the identity on the extended reals, and a matrix product into a zero accumulator is the
  plain sum of products.
-/
import proofs.«123951_j22548578304241_2_alg».proof.Proof.Gen.KernelIdeal.Value
import proofs.«123951_j22548578304241_2_alg».proof.Proof.Spec
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx Cert.Sage

/-! ## Dropping a middle unit axis -/

/-- An `[a, 1, b]` array viewed as `[a, b]` reads, at `(i, j)`, the operand at `(i, 0, j)`: both have row-major
    position `i · b + j`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-! ## The two matrix products -/

/-- The left operand's row is the output's row, -/
theorem lhs_row (i : S1000x256.Idx) (q : dot_S1000x256_S256x256_S1000x256_1_1_0_0_n_n.contr.Idx) :
    (dot_S1000x256_S256x256_S1000x256_1_1_0_0_n_n.lhsIdx i q 0).val = (i 0).val := by
  unfold DotDims.lhsIdx
  rw [dif_neg (show ¬(0 : Fin S1000x256.rank) ∈ dot_S1000x256_S256x256_S1000x256_1_1_0_0_n_n.lhsBatch by decide), dif_pos (show (0 : Fin S1000x256.rank) ∈ dot_S1000x256_S256x256_S1000x256_1_1_0_0_n_n.lhsNonContracting by decide)]
  rfl
/-- its column the contracted coordinate; -/
theorem lhs_col (i : S1000x256.Idx) (q : dot_S1000x256_S256x256_S1000x256_1_1_0_0_n_n.contr.Idx) :
    (dot_S1000x256_S256x256_S1000x256_1_1_0_0_n_n.lhsIdx i q 1).val = (q ⟨0, by decide⟩).val :=
  dot_S1000x256_S256x256_S1000x256_1_1_0_0_n_n.lhsIdx_val_of_single rfl i q
/-- the right operand's row is the output's column, -/
theorem rhs_row (i : S1000x256.Idx) (q : dot_S1000x256_S256x256_S1000x256_1_1_0_0_n_n.contr.Idx) :
    (dot_S1000x256_S256x256_S1000x256_1_1_0_0_n_n.rhsIdx i q 0).val = (i 1).val := by
  unfold DotDims.rhsIdx
  rw [dif_neg (show ¬(0 : Fin S256x256.rank) ∈ dot_S1000x256_S256x256_S1000x256_1_1_0_0_n_n.rhsBatch by decide), dif_pos (show (0 : Fin S256x256.rank) ∈ dot_S1000x256_S256x256_S1000x256_1_1_0_0_n_n.rhsNonContracting by decide)]
  rfl
/-- its column the contracted coordinate. -/
theorem rhs_col (i : S1000x256.Idx) (q : dot_S1000x256_S256x256_S1000x256_1_1_0_0_n_n.contr.Idx) :
    (dot_S1000x256_S256x256_S1000x256_1_1_0_0_n_n.rhsIdx i q 1).val = (q ⟨0, by decide⟩).val :=
  dot_S1000x256_S256x256_S1000x256_1_1_0_0_n_n.rhsIdx_val_of_single rfl i q

/-- A [1000, 256] block times the transpose of a [256, 256] block, into zero, at entry (p, q): row `p` of the first
    against row `q` of the second. -/
theorem matmul_rows_apply {φ₁ φ₂ : FTy} (l : FVec Ideal S1000x256 φ₁) (r : FVec Ideal S256x256 φ₂) (p : Fin 1000) (q : Fin 256) :
    matmul dot_S1000x256_S256x256_S1000x256_1_1_0_0_n_n none l r (constant (F := Ideal) S1000x256 .f32 0x00000000#32) (ix2 p q)
      = ∑ k : Fin 256, l (ix2 p k) * r (ix2 q k) := by
  simp only [matmul]
  rw [Ideal.matmul_constant_zero_apply, ← Equiv.sum_comp (contrEquiv1 dot_S1000x256_S256x256_S1000x256_1_1_0_0_n_n 256 rfl rfl).symm]
  refine Finset.sum_congr rfl fun k _ => ?_
  have hk := contrEquiv1_symm_val dot_S1000x256_S256x256_S1000x256_1_1_0_0_n_n 256 rfl rfl k
  have el : dot_S1000x256_S256x256_S1000x256_1_1_0_0_n_n.lhsIdx (ix2 p q) ((contrEquiv1 dot_S1000x256_S256x256_S1000x256_1_1_0_0_n_n 256 rfl rfl).symm k) = ix2 p k := funext fun a => Fin.ext (by
    match a with
    | ⟨0, _⟩ => exact lhs_row _ _
    | ⟨1, _⟩ => exact (lhs_col _ _).trans hk)
  have er : dot_S1000x256_S256x256_S1000x256_1_1_0_0_n_n.rhsIdx (ix2 p q) ((contrEquiv1 dot_S1000x256_S256x256_S1000x256_1_1_0_0_n_n 256 rfl rfl).symm k) = ix2 q k := funext fun a => Fin.ext (by
    match a with
    | ⟨0, _⟩ => exact rhs_row _ _
    | ⟨1, _⟩ => exact (rhs_col _ _).trans hk)
  rw [el, er]

/-! ## The second half of the body: the last six neighbour rows, the scaling, the products -/

/-- Given the sum `s` of the first ten neighbour rows: six more rows are added, the sum is scaled, and the two products
    are added. -/
theorem products_apply (s : FVec Ideal S1000x256 .f32) (P10 : Vec Ideal S1000x1x256 .f32) (P11 : Vec Ideal S1000x1x256 .f32) (P12 : Vec Ideal S1000x1x256 .f32) (P13 : Vec Ideal S1000x1x256 .f32) (P14 : Vec Ideal S1000x1x256 .f32) (P15 : Vec Ideal S1000x1x256 .f32)
    (P16 : Vec Ideal S1000x256 .f32) (P17 P18 : Vec Ideal S256x256 .bf16) (p : Fin 1000) (q : Fin 256) :
    k0_pay3 s P10 P11 P12 P13 P14 P15 P16 P17 P18 (ix2 p q)
      = ∑ k : Fin 256, P16 (ix2 p k) * P17 (ix2 q k)
        + ∑ k : Fin 256, ((s (ix2 p k) + P10 (ix3 p (0 : Fin 1) k) + P11 (ix3 p (0 : Fin 1) k) + P12 (ix3 p (0 : Fin 1) k) + P13 (ix3 p (0 : Fin 1) k) + P14 (ix3 p (0 : Fin 1) k) + P15 (ix3 p (0 : Fin 1) k))
            * Ideal.ofBits .f32 0x3D800000#32) * P18 (ix2 q k) := by
  unfold k0_pay3
  rw [addf_apply, matmul_rows_apply, matmul_rows_apply]
  refine congrArg₂ (· + ·) (Finset.sum_congr rfl fun k _ => ?_) (Finset.sum_congr rfl fun k _ => ?_)
  · rw [shapeCast_self]; rfl
  · rw [shapeCast_self]
    show (s (ix2 p k) + _ + _ + _ + _ + _ + _) * _ * _ = _
    simp only [shapeCast_a1b_ab_apply]
    rfl

/-! ## The whole body -/

/-- What the body leaves at entry (p, q) of the output block, from its twenty loads. -/
theorem block_apply (P0 : Vec Ideal S1000x1x256 .f32) (P1 : Vec Ideal S1000x1x256 .f32) (P2 : Vec Ideal S1000x1x256 .f32) (P3 : Vec Ideal S1000x1x256 .f32) (P4 : Vec Ideal S1000x1x256 .f32) (P5 : Vec Ideal S1000x1x256 .f32) (P6 : Vec Ideal S1000x1x256 .f32) (P7 : Vec Ideal S1000x1x256 .f32) (P8 : Vec Ideal S1000x1x256 .f32) (P9 : Vec Ideal S1000x1x256 .f32) (P10 : Vec Ideal S1000x1x256 .f32) (P11 : Vec Ideal S1000x1x256 .f32) (P12 : Vec Ideal S1000x1x256 .f32) (P13 : Vec Ideal S1000x1x256 .f32) (P14 : Vec Ideal S1000x1x256 .f32) (P15 : Vec Ideal S1000x1x256 .f32) (P16 : Vec Ideal S1000x256 .f32) (P17 P18 : Vec Ideal S256x256 .bf16) (P19 : Vec Ideal S1x256 .f32) (p : Fin 1000) (q : Fin 256) :
    Value.E4 P0 P1 P2 P3 P4 P5 P6 P7 P8 P9 P10 P11 P12 P13 P14 P15 P16 P17 P18 P19 (ix2 p q)
      = max ((∑ k : Fin 256, P16 (ix2 p k) * P17 (ix2 q k)
          + ∑ k : Fin 256, ((P0 (ix3 p (0 : Fin 1) k) + P1 (ix3 p (0 : Fin 1) k) + P2 (ix3 p (0 : Fin 1) k) + P3 (ix3 p (0 : Fin 1) k) + P4 (ix3 p (0 : Fin 1) k) + P5 (ix3 p (0 : Fin 1) k) + P6 (ix3 p (0 : Fin 1) k) + P7 (ix3 p (0 : Fin 1) k) + P8 (ix3 p (0 : Fin 1) k) + P9 (ix3 p (0 : Fin 1) k) + P10 (ix3 p (0 : Fin 1) k) + P11 (ix3 p (0 : Fin 1) k) + P12 (ix3 p (0 : Fin 1) k) + P13 (ix3 p (0 : Fin 1) k) + P14 (ix3 p (0 : Fin 1) k) + P15 (ix3 p (0 : Fin 1) k))
              * Ideal.ofBits .f32 0x3D800000#32) * P18 (ix2 q k))
        + P19 (ix2 (0 : Fin 1) q)) 0 := by
  have e0 : Value.ix4_0 (ix2 p q : S1000x256.Idx) = ix2 p q :=
    funext fun a => Fin.ext (by match a with | ⟨0, _⟩ => rfl | ⟨1, _⟩ => rfl)
  have e1 : Value.ix4_1 (ix2 p q : S1000x256.Idx) = ix2 (0 : Fin 1) q :=
    funext fun a => Fin.ext (by match a with | ⟨0, _⟩ => rfl | ⟨1, _⟩ => rfl)
  show max (k0_pay3 _ P10 P11 P12 P13 P14 P15 P16 P17 P18 (Value.ix4_0 (ix2 p q)) + P19 (Value.ix4_1 (ix2 p q))) (Ideal.ofBits .f32 0x00000000#32) = _
  rw [e0, e1, products_apply, Ideal.ofBits_zero_f32]
  simp only [addf_apply, shapeCast_a1b_ab_apply]

end Cert.KernelIdeal.Body

end
-- ==== Proof.Point.lean ====
/-
  One grid point: the block the body leaves is the layer's block.

  At a grid point the body sees a node block [1000, 256], a neighbour block [1000, 16, 256], the whole weight array
  [256, 512] and the bias as one row [1, 256]. If these hold rows `t·1000 … t·1000 + 999` of the node and neighbour
  arrays, the weights and the bias, then entry `y` of what the body leaves is the layer at row `t·1000 + y₀`, column
  `y₁`: the body's sixteen slices of the neighbour block are its sixteen neighbour positions, its two slices of the
  weights the left and right halves of the columns, and adding the sixteen rows left to right is their sum.
-/
import proofs.«123951_j22548578304241_2_alg».proof.Proof.Gen.KernelIdeal.Value
import proofs.«123951_j22548578304241_2_alg».proof.Proof.Body
import proofs.«123951_j22548578304241_2_alg».proof.Proof.Spec
import Idealize.ShloMosaic.Lib.ValueIdx
import Idealize.ShloMosaic.Lib.Pipeline.Value

noncomputable section

namespace Cert.KernelIdeal.Point

open Cert.KernelIdeal Cert.KernelIdeal.Gen Idealize.ShloMosaic Idealize.ShloMosaic.ValueIdx Cert.Sage

/-- Slice `j` of the neighbour block — all rows, neighbour position `j`, all features — read at (p, 0, k) is the block
    at (p, j, k). -/
theorem nbr_slice (X : Vec Ideal S1000x16x256 .f32) (off : Fin 3 → Nat)
    (inb : ∀ a, off a + S1000x1x256.size a ≤ S1000x16x256.size a) (p : Fin 1000) (k : Fin 256) (j : Fin 16)
    (h0 : off 0 = 0) (h1 : off 1 = j.val) (h2 : off 2 = 0) :
    View.ld X (Rect.unit (s := S1000x16x256) off S1000x1x256.size inb) (ix3 p (0 : Fin 1) k) = X (ix3 p j k) :=
  congrArg X (funext fun a => Fin.ext (by
    match a with
    | ⟨0, _⟩ => show off 0 + 1 * p.val = p.val; omega
    | ⟨1, _⟩ => show off 1 + 1 * 0 = j.val; omega
    | ⟨2, _⟩ => show off 2 + 1 * k.val = k.val; omega))

/-- The left half of the weight columns, read at (o, k), is the weights at (o, k). -/
theorem weights_left (X : Vec Ideal S256x512 .bf16) (o k : Fin 256) :
    View.ld X r0_17 (ix2 o k) = X (ix2 o (colSelf k)) :=
  congrArg X (funext fun a => Fin.ext (by
    match a with
    | ⟨0, _⟩ => show 0 + 1 * o.val = o.val; omega
    | ⟨1, _⟩ => show 0 + 1 * k.val = k.val; omega))

/-- The right half, read at (o, k), is the weights at (o, 256 + k). -/
theorem weights_right (X : Vec Ideal S256x512 .bf16) (o k : Fin 256) :
    View.ld X r0_18 (ix2 o k) = X (ix2 o (colNbr k)) :=
  congrArg X (funext fun a => Fin.ext (by
    match a with
    | ⟨0, _⟩ => show 0 + 1 * o.val = o.val; omega
    | ⟨1, _⟩ => show 256 + 1 * k.val = 256 + k.val; omega))

theorem zero_offsets : (![0, 0] : Fin 2 → Nat) = fun _ => 0 := funext fun a => by fin_cases a <;> rfl

/-- THE POINT: with the input blocks holding rows `t·1000 …` of the arrays, the body's block at `y` is the layer at the
    array index `i` under it. -/
theorem block_eq_layer (x0 : Vec Ideal S1000x256 .f32) (x1 : Vec Ideal S1000x16x256 .f32) (x2 : Vec Ideal S256x512 .bf16)
    (x3 : Vec Ideal S1x256 .f32)
    (h : (⟨2, ![50000, 256]⟩ : Shape).Idx → EReal) (nei : (⟨3, ![50000, 16, 256]⟩ : Shape).Idx → EReal)
    (W : (⟨2, ![256, 512]⟩ : Shape).Idx → EReal) (b : (⟨1, ![256]⟩ : Shape).Idx → EReal)
    (t : ℕ) (y : S1000x256.Idx) (i : S50000x256.Idx)
    (hi0 : (i 0).val = t * 1000 + (y 0).val) (hi1 : (i 1).val = (y 1).val)
    (h0 : ∀ (p : Fin 1000) (k : Fin 256) (n : Fin 50000), n.val = t * 1000 + p.val → x0 (ix2 p k) = h (ix2 n k))
    (h1 : ∀ (p : Fin 1000) (j : Fin 16) (k : Fin 256) (n : Fin 50000), n.val = t * 1000 + p.val →
      x1 (ix3 p j k) = nei (ix3 n j k))
    (h2 : ∀ (o : Fin 256) (c : Fin 512), x2 (ix2 o c) = W (ix2 o c))
    (h3 : ∀ o : Fin 256, x3 (ix2 (0 : Fin 1) o) = b (ix1 o)) :
    out0_4 x0 x1 x2 x3 y = layer h nei W b i := by
  obtain ⟨p, q, rfl⟩ : ∃ (p : Fin 1000) (q : Fin 256), y = ix2 p q := ⟨y 0, y 1, eq_ix2 y⟩
  obtain ⟨n, o, rfl⟩ : ∃ (n : Fin 50000) (o : Fin 256), i = ix2 n o := ⟨i 0, i 1, eq_ix2 i⟩
  have hn : n.val = t * 1000 + p.val := hi0
  obtain rfl : o = q := Fin.ext hi1
  unfold out0_4
  refine (Value.canon4_eq _ _ _ _ _ _ _ _ _ _ _ _ _ _ _ _ _ _ _ _ (ix2 p o)).trans ?_
  refine (Body.block_apply _ _ _ _ _ _ _ _ _ _ _ _ _ _ _ _ _ _ _ _ p o).trans ?_
  show _ = layerAt h nei W b n o
  unfold layerAt mean
  refine congrArg₂ max (congrArg₂ (· + ·) (congrArg₂ (· + ·) (Finset.sum_congr rfl fun k _ => ?_)
    (Finset.sum_congr rfl fun k _ => ?_)) ?_) rfl
  · rw [View.ld_unit_zero (S := S1000x256) zero_offsets, weights_left, h0 p k n hn, h2]
  · rw [sum_sixteen, weights_right, h2,
    nbr_slice x1 ![0, 0, 0] _ p k 0 rfl rfl rfl, h1 p 0 k n hn,
    nbr_slice x1 ![0, 1, 0] _ p k 1 rfl rfl rfl, h1 p 1 k n hn,
    nbr_slice x1 ![0, 2, 0] _ p k 2 rfl rfl rfl, h1 p 2 k n hn,
    nbr_slice x1 ![0, 3, 0] _ p k 3 rfl rfl rfl, h1 p 3 k n hn,
    nbr_slice x1 ![0, 4, 0] _ p k 4 rfl rfl rfl, h1 p 4 k n hn,
    nbr_slice x1 ![0, 5, 0] _ p k 5 rfl rfl rfl, h1 p 5 k n hn,
    nbr_slice x1 ![0, 6, 0] _ p k 6 rfl rfl rfl, h1 p 6 k n hn,
    nbr_slice x1 ![0, 7, 0] _ p k 7 rfl rfl rfl, h1 p 7 k n hn,
    nbr_slice x1 ![0, 8, 0] _ p k 8 rfl rfl rfl, h1 p 8 k n hn,
    nbr_slice x1 ![0, 9, 0] _ p k 9 rfl rfl rfl, h1 p 9 k n hn,
    nbr_slice x1 ![0, 10, 0] _ p k 10 rfl rfl rfl, h1 p 10 k n hn,
    nbr_slice x1 ![0, 11, 0] _ p k 11 rfl rfl rfl, h1 p 11 k n hn,
    nbr_slice x1 ![0, 12, 0] _ p k 12 rfl rfl rfl, h1 p 12 k n hn,
    nbr_slice x1 ![0, 13, 0] _ p k 13 rfl rfl rfl, h1 p 13 k n hn,
    nbr_slice x1 ![0, 14, 0] _ p k 14 rfl rfl rfl, h1 p 14 k n hn,
    nbr_slice x1 ![0, 15, 0] _ p k 15 rfl rfl rfl, h1 p 15 k n hn]
  · rw [View.ld_unit_zero (S := S1x256) zero_offsets, h3]

end Cert.KernelIdeal.Point

end
-- ==== Proof.Whole.lean ====
/-
  The kernel's whole result array.

  The call runs over fifty grid points. Point `t` is handed rows `t·1000 … t·1000 + 999` of the node features and of
  the neighbour rows, the whole weight array and the bias row, and writes back rows `t·1000 … t·1000 + 999` of the
  result. Before the call the weights are converted to a narrower float format (the identity on the extended reals)
  and the bias `[256]` is viewed as one row `[1, 256]`. So each point writes the layer's rows of its block, the fifty
  blocks tile the 50000 rows (row `r` belongs to point `r / 1000`), and the array ends holding the layer of the
  arguments.
-/
import proofs.«123951_j22548578304241_2_alg».proof.Proof.Gen.KernelIdeal.Value
import proofs.«123951_j22548578304241_2_alg».proof.Proof.Point
import proofs.«123951_j22548578304241_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (m : (ℓ : Loc nD τ sig) → Buf (Elt Ideal) ℓ) (ρ : Dev nD → PrngReg)

/-- The layer of the four argument arrays as launched, on core `c`. -/
abbrev result (c : Dev nD) : Buf (Elt Ideal) ((c : Thread nD τ).loc main_v2) :=
  layer (m ((c : Thread nD τ).loc main_arg0)) (m ((c : Thread nD τ).loc main_arg1)) (m ((c : Thread nD τ).loc main_arg2)) (m ((c : Thread nD τ).loc main_arg3))

/-! ## Where each point's blocks sit -/

/-- The index maps over the fifty points: the node, neighbour and result blocks move down with the point, the weights
    and the bias stay. -/
theorem block_indices : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## What the two host operations before the call leave -/

/-- The converted weights are the weights. -/
theorem weights_entry (c : Dev nD) : (V m c main_v0 : S256x512.Idx → EReal) = m ((c : Thread nD τ).loc main_arg2) := by
  dsimp only [V, hostOps0]; after_results; rfl

/-- The bias row at (0, o) is the bias at o. -/
theorem bias_entry (c : Dev nD) (o : Fin 256) :
    (V m c main_v1 : S1x256.Idx → EReal) (ix2 (0 : Fin 1) o) = m ((c : Thread nD τ).loc main_arg3) (ix1 o) := by
  have e : (V m c main_v1 : S1x256.Idx → EReal) = shapeCast S1x256 (m ((c : Thread nD τ).loc main_arg3)) shapeCasts_S256_S1x256 := by
    dsimp only [V, hostOps0]; after_results; rfl
  rw [e]
  exact shapeCast_a_1a_apply _ _ 0 o

/-! ## The input blocks as rows of the arrays -/

/-- Point `t`'s node block at (p, k) is the node array at row `t·1000 + p`. -/
theorem node_block (c : Dev nD) (t : Fin cfg0.N) (p : Fin 1000) (k : Fin 256) (n : Fin 50000) (hn : n.val = t.val * 1000 + p.val) :
    (iblk m c 0 t : Vec Ideal S1000x256 .f32) (ix2 p k) = m ((c : Thread nD τ).loc main_arg0) (ix2 n k) := by
  obtain ⟨a0, a1, -⟩ := block_indices t
  unfold iblk
  rw [show V m c (Pipeline.arrRef spec0 0) = m ((c : Thread nD τ).loc main_arg0) from V_main_arg0 m c, View.read_apply]
  show m ((c : Thread nD τ).loc main_arg0) _ = _
  refine congrArg _ (funext fun a => Fin.ext ?_)
  match a with
  | ⟨0, _⟩ => show win0_0.index t 0 * 1000 + 1 * p.val = n.val; rw [a0, hn]; omega
  | ⟨1, _⟩ => show win0_0.index t 1 * 256 + 1 * k.val = k.val; rw [a1]; omega

/-- Point `t`'s neighbour block at (p, j, k) is the neighbour array at row `t·1000 + p`. -/
theorem nbr_block (c : Dev nD) (t : Fin cfg0.N) (p : Fin 1000) (j : Fin 16) (k : Fin 256) (n : Fin 50000)
    (hn : n.val = t.val * 1000 + p.val) :
    (iblk m c 1 t : Vec Ideal S1000x16x256 .f32) (ix3 p j k) = m ((c : Thread nD τ).loc main_arg1) (ix3 n j k) := by
  obtain ⟨-, -, b0, b1, b2, -⟩ := block_indices t
  unfold iblk
  rw [show V m c (Pipeline.arrRef spec0 1) = m ((c : Thread nD τ).loc main_arg1) from V_main_arg1 m c, View.read_apply]
  show m ((c : Thread nD τ).loc main_arg1) _ = _
  refine congrArg _ (funext fun a => Fin.ext ?_)
  match a with
  | ⟨0, _⟩ => show win0_1.index t 0 * 1000 + 1 * p.val = n.val; rw [b0, hn]; omega
  | ⟨1, _⟩ => show win0_1.index t 1 * 16 + 1 * j.val = j.val; rw [b1]; omega
  | ⟨2, _⟩ => show win0_1.index t 2 * 256 + 1 * k.val = k.val; rw [b2]; omega

/-- Every point's weight block is the whole weight array. -/
theorem weights_block (c : Dev nD) (t : Fin cfg0.N) (o : Fin 256) (k : Fin 512) :
    (iblk m c 2 t : Vec Ideal S256x512 .bf16) (ix2 o k) = m ((c : Thread nD τ).loc main_arg2) (ix2 o k) := by
  obtain ⟨-, -, -, -, -, w0, w1, -⟩ := block_indices t
  unfold iblk
  rw [View.read_apply]
  show (V m c main_v0 : S256x512.Idx → EReal) _ = _
  rw [weights_entry]
  refine congrArg _ (funext fun a => Fin.ext ?_)
  match a with
  | ⟨0, _⟩ => show win0_2.index t 0 * 256 + 1 * o.val = o.val; rw [w0]; omega
  | ⟨1, _⟩ => show win0_2.index t 1 * 512 + 1 * k.val = k.val; rw [w1]; omega

/-- Every point's bias block is the bias row. -/
theorem bias_block (c : Dev nD) (t : Fin cfg0.N) (o : Fin 256) :
    (iblk m c 3 t : Vec Ideal S1x256 .f32) (ix2 (0 : Fin 1) o) = m ((c : Thread nD τ).loc main_arg3) (ix1 o) := by
  obtain ⟨-, -, -, -, -, -, -, s0, s1, -⟩ := block_indices t
  unfold iblk
  rw [View.read_apply]
  show (V m c main_v1 : S1x256.Idx → EReal) _ = _
  refine Eq.trans (congrArg _ (funext fun a => Fin.ext ?_)) (bias_entry m c o)
  match a with
  | ⟨0, _⟩ => show win0_3.index t 0 * 1 + 1 * 0 = 0; rw [s0]
  | ⟨1, _⟩ => show win0_3.index t 1 * 256 + 1 * o.val = o.val; rw [s1]; omega

/-! ## What a point writes back, and the cover -/

/-- Point `t` writes back block `t` of the layer. -/
theorem flushed_eq (c : Dev nD) (t : Fin cfg0.N) :
    (dats m 0 c).flushed 4 t = ((cfg0.win 4).blk t).view.read (Elt Ideal) (result m c) := by
  obtain ⟨-, -, -, -, -, -, -, -, -, o0, o1⟩ := block_indices t
  rw [Value.flushed4]
  funext y
  show out0_4 (iblk m c 0 t) (iblk m c 1 t) (iblk m c 2 t) (iblk m c 3 t) y = result m c (((cfg0.win 4).blk t).view.emb y)
  refine Point.block_eq_layer _ _ _ _ _ _ _ _ t.val y _ ?_ ?_ ?_ ?_ ?_ ?_
  · show win0_4.index t 0 * 1000 + 1 * (y 0).val = t.val * 1000 + (y 0).val; rw [o0]; omega
  · show win0_4.index t 1 * 256 + 1 * (y 1).val = (y 1).val; rw [o1]; omega
  · exact fun p k n hn => node_block m c t p k n hn
  · exact fun p j k n hn => nbr_block m c t p j k n hn
  · exact fun o k => weights_block m c t o k
  · exact fun o => bias_block m c t o

/-- An index of the result array is in point `t`'s block iff each coordinate is in the block's range on its axis. -/
theorem mem_block (t : Fin cfg0.N) (i : S50000x256.Idx) :
    i ∈ ((cfg0.win 4).blk t).view.set ↔ ∀ a : Fin 2, win0_4.index t a * S1000x256.size a ≤ (i a).val
      ∧ (i a).val < win0_4.index t a * S1000x256.size a + S1000x256.size a := by
  show i ∈ ((View.whole main_v2).slice (win0_4.rect t)).set ↔ _
  rw [View.set_slice_whole, Rect.mem_set_unit]
  exact Iff.rfl

/-- Row `r` is in the block of point `r / 1000`: the fifty blocks cover the array. -/
theorem covered (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  have hN : cfg0.N = 50 := N_0
  obtain ⟨t, ht⟩ : ∃ t : Fin cfg0.N, t.val = (i 0).val / 1000 := ⟨⟨(i 0).val / 1000, by omega⟩, rfl⟩
  obtain ⟨-, -, -, -, -, -, -, -, -, o0, o1⟩ := block_indices t
  refine ⟨t, flush0_4 t, ?_⟩
  rw [mem_block]
  intro a
  match a with
  | ⟨0, _⟩ =>
    show win0_4.index t 0 * 1000 ≤ (i 0).val ∧ (i 0).val < win0_4.index t 0 * 1000 + 1000
    rw [o0, ht]; omega
  | ⟨1, _⟩ =>
    show win0_4.index t 1 * 256 ≤ (i 1).val ∧ (i 1).val < win0_4.index t 1 * 256 + 256
    rw [o1]; omega

/-- The result array after the call is the layer of the arguments. -/
theorem final (c : Dev nD) : (dats m 0 c).arrAt 4 cfg0.N = result m c :=
  (dats m 0 c).arrAt_eq_of_cover 4 (result m c) (fun t _ => flushed_eq m c t) covered

/-- The run: every weakly fair execution terminates with the result array at the layer of the arguments, the arguments
    unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefValue.lean ====
/-
  The reference, read at an index, is the layer of Spec.

  The reference sums the sixteen neighbour rows (from an initial zero), divides by sixteen, joins the node features and
  the mean side by side into 512 columns, contracts those against the 512 weight columns, adds the bias and takes the
  maximum with zero. Entry (n, c) of the joined array is the node feature `c` for `c < 256` and the mean at `c - 256`
  otherwise, so the contraction over 512 columns is the sum over the left half against the node features plus the sum
  over the right half against the mean.
-/
import proofs.«123951_j22548578304241_2_alg».proof.Proof.Gen.ReferenceIdeal.Read
import proofs.«123951_j22548578304241_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Sage

variable (x0 : (⟨S50000x256, .f32⟩ : BufTy).Contents (Elt Ideal)) (x1 : (⟨S50000x16x256, .f32⟩ : BufTy).Contents (Elt Ideal)) (x2 : (⟨S256x512, .f32⟩ : BufTy).Contents (Elt Ideal)) (x3 : (⟨S256, .f32⟩ : BufTy).Contents (Elt Ideal))

/-- The mean stage at (n, k): the initial zero drops out and the quotient by sixteen is the product with a sixteenth. -/
theorem mean_apply (n : Fin 50000) (k : Fin 256) : val_main_v2 (F := Ideal) x1 (ix2 n k) = mean x1 n k := by
  have e : ∀ j : Fin 16, idx_main_v0 (ix2 n k) j = ix3 n j k := fun j =>
    funext fun a => Fin.ext (by match a with | ⟨0, _⟩ => rfl | ⟨1, _⟩ => rfl | ⟨2, _⟩ => rfl)
  rw [val_main_v2_apply, val_main_v0_apply, val_main_v1_apply, val_main_cst_0_apply, val_main_cst_apply]
  simp only [Ideal.hostDivf_def, Ideal.ofBits_def, Ideal.ofBits_zero_f32, zero_add, div_sixteen, e]
  rfl

/-- A left-half column of the joined array is the node feature. -/
theorem joined_self (i : S50000x256.Idx) (k : Fin 256) :
    val_main_v3 (F := Ideal) x0 x1 (lidx_main_v4 i (colSelf k)) = x0 (ix2 (i 0) k) := by
  unfold val_main_v3
  exact concatenate_pair_apply_left (1 : Fin S50000x512.rank) x0 (val_main_v2 (F := Ideal) x1)
    concatenates_S50000x256_S50000x256_S50000x512_d1 (lidx_main_v4 i (colSelf k)) rfl (ix2 (i 0) k)
    (fun b => match b with | ⟨0, _⟩ => rfl | ⟨1, _⟩ => rfl)

/-- A right-half column of the joined array is the mean, 256 columns back. -/
theorem joined_nbr (i : S50000x256.Idx) (k : Fin 256) :
    val_main_v3 (F := Ideal) x0 x1 (lidx_main_v4 i (colNbr k)) = mean x1 (i 0) k := by
  refine Eq.trans ?_ (mean_apply x1 (i 0) k)
  unfold val_main_v3
  exact concatenate_pair_apply_right (1 : Fin S50000x512.rank) x0 (val_main_v2 (F := Ideal) x1)
    concatenates_S50000x256_S50000x256_S50000x512_d1 (lidx_main_v4 i (colNbr k)) rfl rfl (ix2 (i 0) k)
    (fun b => match b with | ⟨0, _⟩ => fun _ => rfl | ⟨1, _⟩ => fun h => absurd rfl h)
    (by show k.val + 256 = 256 + k.val; omega)

/-- The reference's result is the layer. -/
theorem result_eq : val_main_v8 (F := Ideal) x0 x1 x2 x3 = layer x0 x1 x2 x3 := by
  funext i
  have ew : ∀ c : Fin 512, ridx_main_v4 i c = ix2 (i 1) c := fun c =>
    funext fun a => Fin.ext (by match a with | ⟨0, _⟩ => rfl | ⟨1, _⟩ => rfl)
  have eb : idx_main_v5 (idx_main_v6 i) = ix1 (i 1) :=
    funext fun a => Fin.ext (by match a with | ⟨0, _⟩ => rfl)
  rw [val_main_v8_apply, val_main_v7_apply, val_main_v4_apply, val_main_v6_apply, val_main_v5_apply,
    val_main_call0_v0_apply, val_main_call0_cst_apply, sum_halves]
  simp only [joined_self, joined_nbr, ew, eb, Ideal.maximumf_def, Ideal.addf_def, Ideal.ofBits_def, Ideal.ofBits_zero_f32]
  rfl

end Cert.ReferenceIdeal.RefValue

end
-- ==== Proof.lean ====
/-
  One layer of a graph network with mean aggregation — every node's own features and the mean of its sixteen neighbours'
  features, each multiplied by its half of the weight columns, plus a bias, then the maximum with zero — computed by a
  kernel over fifty blocks of a thousand nodes, against the same layer written as one contraction over the two feature
  blocks joined side by side.

  On the extended reals both programs end at the function `Cert.Sage.layer` of the four argument arrays (Proof/Spec.lean):
  the kernel block by block (Proof/Body.lean: its body at one entry; Proof/Point.lean: one point's block is the layer's
  block; Proof/Whole.lean: the fifty blocks cover the array), the reference stage by stage (Proof/RefValue.lean). What joins
  them is that adding sixteen rows one after the other is their sum, that a sum over 512 columns is the sum over each half,
  and that dividing by sixteen is multiplying by a sixteenth; none of these needs a finite input, so the precondition is
  not opened. The kernel's idealization rewrote no operation, so there is nothing to preserve.
-/
import proofs.«123951_j22548578304241_2_alg».proof.Defs
import proofs.«123951_j22548578304241_2_alg».proof.Proof.Gen.Kernel
import proofs.«123951_j22548578304241_2_alg».proof.Proof.Gen.Kernel.Skeleton
import proofs.«123951_j22548578304241_2_alg».proof.Proof.Gen.Kernel.Launch
import proofs.«123951_j22548578304241_2_alg».proof.Proof.Gen.Kernel.Points
import proofs.«123951_j22548578304241_2_alg».proof.Proof.Gen.Kernel.Frame
import proofs.«123951_j22548578304241_2_alg».proof.Proof.Gen.KernelIdeal
import proofs.«123951_j22548578304241_2_alg».proof.Proof.Gen.KernelIdeal.Skeleton
import proofs.«123951_j22548578304241_2_alg».proof.Proof.Gen.KernelIdeal.Launch
import proofs.«123951_j22548578304241_2_alg».proof.Proof.Gen.KernelIdeal.Points
import proofs.«123951_j22548578304241_2_alg».proof.Proof.Gen.KernelIdeal.Frame
import proofs.«123951_j22548578304241_2_alg».proof.Proof.Gen.ReferenceIdeal
import proofs.«123951_j22548578304241_2_alg».proof.Proof.Gen.Pre_finite_inputs
import proofs.«123951_j22548578304241_2_alg».proof.Proof.Gen.KernelIdeal.Value
import proofs.«123951_j22548578304241_2_alg».proof.Proof.Gen.ReferenceIdeal.Run
import proofs.«123951_j22548578304241_2_alg».proof.Proof.Gen.ReferenceIdeal.Read
import proofs.«123951_j22548578304241_2_alg».proof.Proof.Spec
import proofs.«123951_j22548578304241_2_alg».proof.Proof.Body
import proofs.«123951_j22548578304241_2_alg».proof.Proof.Point
import proofs.«123951_j22548578304241_2_alg».proof.Proof.Whole
import proofs.«123951_j22548578304241_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the layer of the arguments in their result
    arrays: the kernel by the cover of its fifty blocks, the reference by reading its stages at an index. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
